-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S512x512 : Shape := ⟨2, ![512, 512]⟩
abbrev S512 : Shape := ⟨1, ![512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S512 .f32) (main_arg12 : FVec F S512x512 .f32) (main_arg13 : FVec F S512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x512 .f32 := Host.absf main_arg12
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_v63 main_v67

def fn_part2 {F : FTy → Type} [FloatOps F] (main_arg7 : FVec F S512 .f32) (main_arg8 : FVec F S512x512 .f32) (main_arg9 : FVec F S512 .f32) (main_arg10 : FVec F S512x512 .f32) (main_arg11 : FVec F S512 .f32) (main_arg12 : FVec F S512x512 .f32) (main_arg13 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_v48 main_v49 main_v50

def fn_part1 {F : FTy → Type} [FloatOps F] (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S512x512 .f32) (main_arg11 : FVec F S512 .f32) (main_arg12 : FVec F S512x512 .f32) (main_arg13 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S32768x512 .f32) (main_arg1 : FVec F S32768x512 .f32) (main_arg2 : FVec F S512x512 .f32) (main_arg3 : FVec F S512 .f32) (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S512x512 .f32) (main_arg11 : FVec F S512 .f32) (main_arg12 : FVec F S512x512 .f32) (main_arg13 : FVec F S512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_v13 main_v16
-- ==== Kernel.lean ====
abbrev S32768x512 : Shape := ⟨2, ![32768, 512]⟩
abbrev S512x512 : Shape := ⟨2, ![512, 512]⟩
abbrev S512 : Shape := ⟨1, ![512]⟩
abbrev S1x512 : Shape := ⟨2, ![1, 512]⟩
abbrev S1024x512 : Shape := ⟨2, ![1024, 512]⟩

abbrev nBuf : Space → Nat
  | .hbm => 33
  | .vmem => 15
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S512x512, .f32⟩
  | .hbm, ⟨15, _⟩ => ⟨S512x512, .bf16⟩
  | .hbm, ⟨16, _⟩ => ⟨S512x512, .f32⟩
  | .hbm, ⟨17, _⟩ => ⟨S512x512, .bf16⟩
  | .hbm, ⟨18, _⟩ => ⟨S512x512, .f32⟩
  | .hbm, ⟨19, _⟩ => ⟨S512x512, .bf16⟩
  | .hbm, ⟨20, _⟩ => ⟨S512x512, .f32⟩
  | .hbm, ⟨21, _⟩ => ⟨S512x512, .bf16⟩
  | .hbm, ⟨22, _⟩ => ⟨S512x512, .f32⟩
  | .hbm, ⟨23, _⟩ => ⟨S512x512, .bf16⟩
  | .hbm, ⟨24, _⟩ => ⟨S512x512, .f32⟩
  | .hbm, ⟨25, _⟩ => ⟨S512x512, .bf16⟩
  | .hbm, ⟨26, _⟩ => ⟨S512, .f32⟩
  | .hbm, ⟨27, _⟩ => ⟨S1x512, .f32⟩
  | .hbm, ⟨28, _⟩ => ⟨S512, .f32⟩
  | .hbm, ⟨29, _⟩ => ⟨S1x512, .f32⟩
  | .hbm, ⟨30, _⟩ => ⟨S512, .f32⟩
  | .hbm, ⟨31, _⟩ => ⟨S1x512, .f32⟩
  | .hbm, ⟨32, _⟩ => ⟨S32768x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1024x512, .f32⟩
  | .local _ .vmem, ⟨14, _⟩ => ⟨S1024x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S512x512_S512x512_1_0 : S512x512.Transposes [1, 0] S512x512
  bitsLt_bf16_f32 : FTy.bits .bf16 < FTy.bits .f32
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S32768x512.size a
  hwx0_1 : ∀ i : grid0.Coords, EltTy.bits .f32 = 32 ∨ (Rect.block (s := S32768x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .bf16 = 32 ∨ (Rect.block (s := S512x512) S512x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x512.size a ≤ S32768x512.size a
  hwx0_11 : ∀ i : grid0.Coords, EltTy.bits .f32 = 32 ∨ (Rect.block (s := S32768x512) S1024x512.size (cc0_transform_11 i) (hinb0_11 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v17) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v18) S1024x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S32768x512 : Shape := ⟨2, ![32768, 512]⟩
abbrev S512x512 : Shape := ⟨2, ![512, 512]⟩
abbrev S512 : Shape := ⟨1, ![512]⟩
abbrev S1x512 : Shape := ⟨2, ![1, 512]⟩
abbrev S_ : Shape := ⟨0, ![]⟩

abbrev nBuf : Space → Nat
  | .hbm => 68
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S512x512, .f32⟩
  | .hbm, ⟨15, _⟩ => ⟨S32768x512, .f32⟩
  | .hbm, ⟨16, _⟩ => ⟨S1x512, .f32⟩
  | .hbm, ⟨17, _⟩ => ⟨S32768x512, .f32⟩
  | .hbm, ⟨18, _⟩ => ⟨S32768x512, .f32⟩
  | .hbm, ⟨19, _⟩ => ⟨S512x512, .f32⟩
  | .hbm, ⟨20, _⟩ => ⟨S32768x512, .f32⟩
  | .hbm, ⟨21, _⟩ => ⟨S32768x512, .f32⟩
  | .hbm, ⟨22, _⟩ => ⟨S1x512, .f32⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S32768x512, .f32⟩
  | .hbm, ⟨27, _⟩ => ⟨S_, .f32⟩
  | .hbm, ⟨28, _⟩ => ⟨S32768x512, .f32⟩
  | .hbm, ⟨29, _⟩ => ⟨S32768x512, .f32⟩
  | .hbm, ⟨30, _⟩ => ⟨S_, .f32⟩
  | .hbm, ⟨31, _⟩ => ⟨S32768x512, .f32⟩
  | .hbm, ⟨32, _⟩ => ⟨S32768x512, .f32⟩
  | .hbm, ⟨33, _⟩ => ⟨S512x512, .f32⟩
  | .hbm, ⟨34, _⟩ => ⟨S32768x512, .f32⟩
  | .hbm, ⟨35, _⟩ => ⟨S1x512, .f32⟩
  | .hbm, ⟨36, _⟩ => ⟨S32768x512, .f32⟩
  | .hbm, ⟨37, _⟩ => ⟨S32768x512, .f32⟩
  | .hbm, ⟨38, _⟩ => ⟨S512x512, .f32⟩
  | .hbm, ⟨39, _⟩ => ⟨S32768x512, .f32⟩
  | .hbm, ⟨40, _⟩ => ⟨S32768x512, .f32⟩
  | .hbm, ⟨41, _⟩ => ⟨S1x512, .f32⟩
  | .hbm, ⟨42, _⟩ => ⟨S32768x512, .f32⟩
  | .hbm, ⟨43, _⟩ => ⟨S32768x512, .f32⟩
  | .hbm, ⟨44, _⟩ => ⟨S32768x512, .f32⟩
  | .hbm, ⟨45, _⟩ => ⟨S32768x512, .f32⟩
  | .hbm, ⟨46, _⟩ => ⟨S_, .f32⟩
  | .hbm, ⟨47, _⟩ => ⟨S32768x512, .f32⟩
  | .hbm, ⟨48, _⟩ => ⟨S32768x512, .f32⟩
  | .hbm, ⟨49, _⟩ => ⟨S_, .f32⟩
  | .hbm, ⟨50, _⟩ => ⟨S32768x512, .f32⟩
  | .hbm, ⟨51, _⟩ => ⟨S32768x512, .f32⟩
  | .hbm, ⟨52, _⟩ => ⟨S512x512, .f32⟩
  | .hbm, ⟨53, _⟩ => ⟨S32768x512, .f32⟩
  | .hbm, ⟨54, _⟩ => ⟨S1x512, .f32⟩
  | .hbm, ⟨55, _⟩ => ⟨S32768x512, .f32⟩
  | .hbm, ⟨56, _⟩ => ⟨S32768x512, .f32⟩
  | .hbm, ⟨57, _⟩ => ⟨S32768x512, .f32⟩
  | .hbm, ⟨58, _⟩ => ⟨S512x512, .f32⟩
  | .hbm, ⟨59, _⟩ => ⟨S32768x512, .f32⟩
  | .hbm, ⟨60, _⟩ => ⟨S32768x512, .f32⟩
  | .hbm, ⟨61, _⟩ => ⟨S1x512, .f32⟩
  | .hbm, ⟨62, _⟩ => ⟨S32768x512, .f32⟩
  | .hbm, ⟨63, _⟩ => ⟨S32768x512, .f32⟩
  | .hbm, ⟨64, _⟩ => ⟨S32768x512, .f32⟩
  | .hbm, ⟨65, _⟩ => ⟨S32768x512, .f32⟩
  | .hbm, ⟨66, _⟩ => ⟨S32768x512, .f32⟩
  | .hbm, ⟨67, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_1 : Ref sig .tc := ⟨.hbm, 46, rfl⟩
abbrev main_v30 : Ref sig .tc := ⟨.hbm, 47, rfl⟩
abbrev main_v31 : Ref sig .tc := ⟨.hbm, 48, rfl⟩
abbrev main_cst_2 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  dot_S32768x512_S512x512_S32768x512_1_0_0_1_n_n_wf : DotDims.WF S32768x512 S512x512 S32768x512 [1] [0] [0] [1] [] []

variable [Facts₀]

def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf

class Facts : Prop extends Facts₀ where

variable [Facts]
-- ==== Proof.GruCell.lean ====
/-
  One row of a gated recurrent unit, on the extended reals.

  An entry of the new state depends on one row of the input `x` and one row of the state `h`, and on the weights:
  with a gate's pre-activation at column `j`

      pre j = Σ_k x[k]·w[k,j] + Σ_k h[k]·u[k,j] + b[j],

  the update gate is `z = σ(pre_z)`, the reset gate `r = σ(pre_r)`, the candidate is `tanh` of the
  pre-activation taken with `h ⊙ r` in place of `h`, and the new state is `h + z·(candidate − h)`.
  Here `σ` is the logistic function `1 / (1 + e⁻ᵛ)`, extended to the infinities by its limits.

  Two ways of adding up a pre-activation are joined here. One whose two biases are added one after the other,
  `((Σx·w + b) + Σh·u) + b'`, is the one above at the bias `b + b'`: addition of extended reals is commutative and
  associative, so no finiteness is asked of anything.
-/
import Idealize.ShloMosaic.PureOps.Ideal
import Idealize.ShloMosaic.Lib.ValueIdx

noncomputable section

namespace Cert.Gru

open Idealize.ShloMosaic Idealize.ShloMosaic.ValueIdx

/-- A gate's pre-activation at column `j`: the input row against column `j` of the input weights, the state row
    against column `j` of the state weights, and the bias. The weights are indexed contraction axis first. -/
def pre (xr hr : Fin 512 → EReal) (w u : Fin 512 → Fin 512 → EReal) (b : Fin 512 → EReal) (j : Fin 512) : EReal :=
  ((∑ k : Fin 512, xr k * w k j) + (∑ k : Fin 512, hr k * u k j)) + b j

/-- The reset gate along the row. -/
def reset (xr hr : Fin 512 → EReal) (wr ur : Fin 512 → Fin 512 → EReal) (br : Fin 512 → EReal) (k : Fin 512) : EReal :=
  Ideal.logistic (pre xr hr wr ur br k)

/-- THE ROW'S NEW STATE at column `j`: `h + z·(tanh(pre over h ⊙ r) − h)`. -/
def cell (xr hr : Fin 512 → EReal) (wz wr wh uz ur uh : Fin 512 → Fin 512 → EReal) (bz br bh : Fin 512 → EReal)
    (j : Fin 512) : EReal :=
  hr j + Ideal.logistic (pre xr hr wz uz bz j)
    * (Ideal.tanh (pre xr (fun k => hr k * reset xr hr wr ur br k) wh uh bh j) - hr j)

/-- Four summands regrouped: commutativity and associativity of addition only. -/
theorem regroup (a b c d : EReal) : ((a + b) + c) + d = (a + c) + (b + d) := by
  rw [add_assoc (a + b) c d, add_add_add_comm]

/-- A pre-activation with its two biases added one after the other is the pre-activation at their sum. -/
theorem pre_two_biases (xr hr : Fin 512 → EReal) (w u : Fin 512 → Fin 512 → EReal) (b b' : Fin 512 → EReal) (j : Fin 512) :
    (((∑ k : Fin 512, xr k * w k j) + b j) + (∑ k : Fin 512, hr k * u k j)) + b' j
      = pre xr hr w u (fun j => b j + b' j) j :=
  regroup _ _ _ _

/-- THE NEW STATE as one function of the fourteen arguments, in the order the programs take them — the rows of `x` and
    of `h`, then weights and bias of the update gate, the reset gate and the candidate on the input side, then the same
    on the state side. At `(i, j)` it is the cell of row `i` at column `j`: a weight matrix is stored output axis first,
    so the cell reads it at the swapped index, and each gate's bias is the sum of its two bias vectors. -/
def newState (x h : (⟨2, ![32768, 512]⟩ : Shape).Idx → EReal)
    (Wz : (⟨2, ![512, 512]⟩ : Shape).Idx → EReal) (bWz : (⟨1, ![512]⟩ : Shape).Idx → EReal)
    (Wr : (⟨2, ![512, 512]⟩ : Shape).Idx → EReal) (bWr : (⟨1, ![512]⟩ : Shape).Idx → EReal)
    (Wh : (⟨2, ![512, 512]⟩ : Shape).Idx → EReal) (bWh : (⟨1, ![512]⟩ : Shape).Idx → EReal)
    (Uz : (⟨2, ![512, 512]⟩ : Shape).Idx → EReal) (bUz : (⟨1, ![512]⟩ : Shape).Idx → EReal)
    (Ur : (⟨2, ![512, 512]⟩ : Shape).Idx → EReal) (bUr : (⟨1, ![512]⟩ : Shape).Idx → EReal)
    (Uh : (⟨2, ![512, 512]⟩ : Shape).Idx → EReal) (bUh : (⟨1, ![512]⟩ : Shape).Idx → EReal) :
    (⟨2, ![32768, 512]⟩ : Shape).Idx → EReal := fun y =>
  cell (fun k => x (ix2 (y 0) k)) (fun k => h (ix2 (y 0) k))
    (fun k j => Wz (ix2 j k)) (fun k j => Wr (ix2 j k)) (fun k j => Wh (ix2 j k))
    (fun k j => Uz (ix2 j k)) (fun k j => Ur (ix2 j k)) (fun k j => Uh (ix2 j k))
    (fun j => bWz (ix1 j) + bUz (ix1 j)) (fun j => bWr (ix1 j) + bUr (ix1 j)) (fun j => bWh (ix1 j) + bUh (ix1 j)) (y 1)

end Cert.Gru

end
-- ==== Proof.LibPlainDot.lean ====
/-
  A plain matrix product read at an index.

  For the dimension numbers of an `M×K` by `K×N` product (`DotDims.plain`: the left operand contracted on its second
  axis, the right one on its first, no batch axis), the sum over the contraction index of the operands' products at
  result index `(i, j)` is `Σ_k l[i,k]·r[k,j]` over `k : Fin K`. Stated for the sum itself, so that it serves a
  kernel's matrix product into a zero accumulator and a host's `dot_general` alike.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction shape of a plain product has one axis. -/
theorem plain_contr_rank (M K N : Nat) : (DotDims.plain M K N).contr.rank = 1 := rfl

/-- The left operand's index at result `(i, j)` and contraction position `k` is `(i, k)`. -/
theorem plain_lhsIdx (M K N : Nat) (i : Fin M) (j : Fin N) (k : Fin K) :
    (DotDims.plain M K N).lhsIdx (ix2 i j) ((contrEquiv1 (DotDims.plain M K N) K rfl rfl).symm k) = ix2 i k := by
  funext a
  refine Fin.ext ?_
  match a with
  | ⟨0, _⟩ => rfl
  | ⟨1, _⟩ =>
    show (((contrEquiv1 (DotDims.plain M K N) K rfl rfl).symm k) ⟨0, (Nat.one_pos : 0 < 1)⟩ : ℕ) = k.val
    exact contrEquiv1_symm_val (DotDims.plain M K N) K rfl rfl k

/-- The right operand's index at result `(i, j)` and contraction position `k` is `(k, j)`. -/
theorem plain_rhsIdx (M K N : Nat) (i : Fin M) (j : Fin N) (k : Fin K) :
    (DotDims.plain M K N).rhsIdx (ix2 i j) ((contrEquiv1 (DotDims.plain M K N) K rfl rfl).symm k) = ix2 k j := by
  funext a
  refine Fin.ext ?_
  match a with
  | ⟨0, _⟩ =>
    show (((contrEquiv1 (DotDims.plain M K N) K rfl rfl).symm k) ⟨0, (Nat.one_pos : 0 < 1)⟩ : ℕ) = k.val
    exact contrEquiv1_symm_val (DotDims.plain M K N) K rfl rfl k
  | ⟨1, _⟩ => rfl

/-- THE PLAIN PRODUCT'S SUM at `(i, j)`: over `k : Fin K`, of `l[i,k]·r[k,j]`. -/
theorem plain_sum (M K N : Nat) (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  exact Finset.sum_congr rfl fun k _ => by rw [plain_lhsIdx, plain_rhsIdx]

/-- A host `dot_general` with the plain dimension numbers, at the ideal values, read at `(i, j)`. -/
theorem plain_dotGeneral_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    Host.dotGeneral (DotDims.plain M K N) prec l r (ix2 i j) = ∑ k : Fin K, l (ix2 i k) * r (ix2 k j) :=
  (Ideal.dotGeneral_apply (DotDims.plain M K N) prec _ l r (ix2 i j)).trans (plain_sum M K N l r i j)

/-- A kernel's matrix product with the plain dimension numbers into the zero splat, at the ideal values, read at `(i, j)`. -/
theorem plain_matmul_zero_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    matmul (DotDims.plain M K N) prec l r (constant ⟨2, ![M, N]⟩ .f32 0x00000000#32) (ix2 i j)
      = ∑ k : Fin K, l (ix2 i k) * r (ix2 k j) :=
  (Ideal.matmul_constant_zero_apply (DotDims.plain M K N) prec l r (ix2 i j)).trans (plain_sum M K N l r i j)

end Cert.Lib

end
-- ==== Proof.KernelRow.lean ====
/-
  What the kernel's body computes, read at one entry of its block.

  At a grid point the body holds a block of 1024 rows of `x` and of `h`, the six weight matrices (already transposed, so
  that the contraction runs over their first axis) and three bias rows of shape [1, 512]. Its one store writes, at
  row `p` and column `q` of the block, the gated-recurrent-unit cell of row `p`: every matrix product into the zero
  accumulator is a plain sum over the 512 contraction positions, a bias row broadcast over the rows reads its one row,
  and a change of float format is the identity on the extended reals.
-/
import proofs.«144782_j61375082660542_2_alg».proof.Proof.Gen.KernelIdeal.Skeleton
import proofs.«144782_j61375082660542_2_alg».proof.Proof.GruCell
import proofs.«144782_j61375082660542_2_alg».proof.Proof.LibPlainDot
import Idealize.ShloMosaic.Lib.ValueIdx
import Idealize.ShloMosaic.Lib.ValueLayout
import Idealize.ShloMosaic.Lib.Pipeline.Value

noncomputable section

namespace Cert.KernelIdeal.Row

open Cert.KernelIdeal Cert.KernelIdeal.Gen Idealize.ShloMosaic Idealize.ShloMosaic.ValueIdx

/-- The body's products are plain ones: 1024×512 by 512×512, the left operand contracted on its second axis and the
    right one on its first. -/
theorem dims_plain : dot_S1024x512_S512x512_S1024x512_1_0_0_1_n_n = DotDims.plain 1024 512 512 := rfl

/-- A block product into the zero accumulator at `(p, q)`: the sum over `k` of `l[p,k]·r[k,q]`. -/
theorem block_product_apply (l : FVec Ideal S1024x512 .bf16) (r : FVec Ideal S512x512 .bf16) (p : Fin 1024) (q : Fin 512) :
    matmul dot_S1024x512_S512x512_S1024x512_1_0_0_1_n_n none l r (constant (F := Ideal) S1024x512 .f32 0x00000000#32) (ix2 p q)
      = ∑ k : Fin 512, l (ix2 p k) * r (ix2 k q) := by
  rw [dims_plain]
  exact Cert.Lib.plain_matmul_zero_apply 1024 512 512 none l r p q

/-- A gate's pre-activation over the block at `(p, q)`: the two block products and the bias row spread over the rows,
    summed, are the row's pre-activation at column `q`. -/
theorem gate_apply (x h : FVec Ideal S1024x512 .bf16) (w u : FVec Ideal S512x512 .bf16) (b : FVec Ideal S1x512 .f32)
    (p : Fin 1024) (q : Fin 512) :
    addf (addf (matmul dot_S1024x512_S512x512_S1024x512_1_0_0_1_n_n none x w (constant (F := Ideal) S1024x512 .f32 0x00000000#32))
               (matmul dot_S1024x512_S512x512_S1024x512_1_0_0_1_n_n none h u (constant (F := Ideal) S1024x512 .f32 0x00000000#32)))
         (broadcastTo S1024x512 b broadcasts_S1x512_S1024x512) (ix2 p q)
      = Cert.Gru.pre (fun k => x (ix2 p k)) (fun k => h (ix2 p k)) (fun k j => w (ix2 k j)) (fun k j => u (ix2 k j))
          (fun j => b (ix2 (0 : Fin 1) j)) q := by
  show matmul dot_S1024x512_S512x512_S1024x512_1_0_0_1_n_n none x w (constant (F := Ideal) S1024x512 .f32 0x00000000#32) (ix2 p q)
      + matmul dot_S1024x512_S512x512_S1024x512_1_0_0_1_n_n none h u (constant (F := Ideal) S1024x512 .f32 0x00000000#32) (ix2 p q)
      + broadcastTo S1024x512 b broadcasts_S1x512_S1024x512 (ix2 p q) = _
  rw [block_product_apply, block_product_apply, broadcastTo_1b_ab_apply]
  rfl

/-- The update gate over the block at `(p, q)`. -/
theorem update_gate_apply (x0 x1 : Vec Ideal S1024x512 .f32) (x2 x5 : Vec Ideal S512x512 .bf16) (x8 : Vec Ideal S1x512 .f32)
    (p : Fin 1024) (q : Fin 512) :
    k0_pay8 (F := Ideal) x0 x1 x2 x5 x8 (ix2 p q)
      = Ideal.logistic (Cert.Gru.pre (fun k => x0 (ix2 p k)) (fun k => x1 (ix2 p k)) (fun k j => x2 (ix2 k j))
          (fun k j => x5 (ix2 k j)) (fun j => x8 (ix2 (0 : Fin 1) j)) q) := by
  unfold k0_pay8 k0_pay2 k0_pay3
  simp only [shapeCast_self]
  exact congrArg Ideal.logistic (gate_apply (truncf .bf16 x0 bitsLt_bf16_f32) (truncf .bf16 x1 bitsLt_bf16_f32) x2 x5 x8 p q)

/-- The reset gate's pre-activation over the block at `(p, q)`. -/
theorem reset_pre_apply (x0 x1 : Vec Ideal S1024x512 .f32) (x3 x6 : Vec Ideal S512x512 .bf16) (x9 : Vec Ideal S1x512 .f32)
    (p : Fin 1024) (q : Fin 512) :
    k0_pay7 (F := Ideal) x0 x1 x3 x6 x9 (ix2 p q)
      = Cert.Gru.pre (fun k => x0 (ix2 p k)) (fun k => x1 (ix2 p k)) (fun k j => x3 (ix2 k j))
          (fun k j => x6 (ix2 k j)) (fun j => x9 (ix2 (0 : Fin 1) j)) q := by
  unfold k0_pay7 k0_pay2 k0_pay3
  simp only [shapeCast_self]
  exact gate_apply (truncf .bf16 x0 bitsLt_bf16_f32) (truncf .bf16 x1 bitsLt_bf16_f32) x3 x6 x9 p q

/-- The stored value at `(p, q)`, from the block of `h`, the block of `x`, the candidate's weights and bias, the reset gate's
    pre-activation `a` and the update gate `z`: `h + z·(tanh(pre over h ⊙ σ(a)) − h)`. -/
theorem new_state_apply (v1 : Vec Ideal S1024x512 .f32) (v2 : FVec Ideal S1024x512 .bf16) (v9 v15 : FVec Ideal S512x512 .bf16)
    (v21 : FVec Ideal S1x512 .f32) (a z : FVec Ideal S1024x512 .f32) (p : Fin 1024) (q : Fin 512) :
    k0_pay1 (F := Ideal) v1 v2 v9 v15 v21 a z (ix2 p q)
      = v1 (ix2 p q) + z (ix2 p q)
          * (Ideal.tanh (Cert.Gru.pre (fun k => v2 (ix2 p k)) (fun k => v1 (ix2 p k) * Ideal.logistic (a (ix2 p k)))
              (fun k j => v9 (ix2 k j)) (fun k j => v15 (ix2 k j)) (fun j => v21 (ix2 (0 : Fin 1) j)) q) - v1 (ix2 p q)) := by
  unfold k0_pay1
  exact congrArg (fun e => v1 (ix2 p q) + z (ix2 p q) * (Ideal.tanh e - v1 (ix2 p q)))
    (gate_apply v2 (truncf .bf16 (mulf v1 (logistic a)) bitsLt_bf16_f32) v9 v15 v21 p q)

/-- THE BODY'S STORE AT `(p, q)` is the cell of row `p` of the blocks at column `q`. The blocks are named by the
    windows that carry them: 0 and 1 the rows of `x` and `h`; 2, 3, 4 the input weights of the update gate, the reset
    gate and the candidate; 5, 6, 7 the state weights in the same order; 8, 9, 10 the bias rows in the same order. -/
theorem store_apply (x0 x1 : Vec Ideal S1024x512 .f32) (x2 x3 x4 x5 x6 x7 : Vec Ideal S512x512 .bf16)
    (x8 x9 x10 : Vec Ideal S1x512 .f32) (p : Fin 1024) (q : Fin 512) :
    k0_pay1 (F := Ideal) x1 (k0_pay2 x0) (k0_pay4 x4) (k0_pay5 x7) (k0_pay6 x10) (k0_pay7 x0 x1 x3 x6 x9) (k0_pay8 x0 x1 x2 x5 x8) (ix2 p q)
      = Cert.Gru.cell (fun k => x0 (ix2 p k)) (fun k => x1 (ix2 p k))
          (fun k j => x2 (ix2 k j)) (fun k j => x3 (ix2 k j)) (fun k j => x4 (ix2 k j))
          (fun k j => x5 (ix2 k j)) (fun k j => x6 (ix2 k j)) (fun k j => x7 (ix2 k j))
          (fun j => x8 (ix2 (0 : Fin 1) j)) (fun j => x9 (ix2 (0 : Fin 1) j)) (fun j => x10 (ix2 (0 : Fin 1) j)) q := by
  rw [new_state_apply, update_gate_apply]
  simp only [reset_pre_apply]
  unfold k0_pay2 k0_pay4 k0_pay5 k0_pay6
  simp only [shapeCast_self]
  rfl

end Cert.KernelIdeal.Row

end
-- ==== Proof.RegionArrays.lean ====
/-
  The arrays the kernel's one region finds, in terms of the arguments.

  Before the region the host transposes each of the six weight matrices (and casts it to a narrower float format,
  the identity on the extended reals) and adds the two bias vectors of each gate, laying the sum out as a [1, 512] row.
  So a weight array read at `(k, j)` is its argument at `(j, k)`, and a bias row read at `(0, j)` is the sum of its two
  arguments at `j`. The rows of `x` and `h` are passed as they are.
-/
import proofs.«144782_j61375082660542_2_alg».proof.Proof.Gen.KernelIdeal.Frame
import Idealize.ShloMosaic.PureOps.Ideal
import Idealize.ShloMosaic.Lib.StableHlo.Run
import Idealize.ShloMosaic.Lib.ValueIdx
import Idealize.ShloMosaic.Lib.ValueLayout

noncomputable section

namespace Cert.KernelIdeal.RegionArrays

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## The fourteen arguments, by name -/

/-- Argument 0, the rows of `x`, as a function on its indices. -/
abbrev xs (c : Dev nD) : S32768x512.Idx → EReal := m ((c : Thread nD τ).loc main_arg0)
/-- Argument 1, the rows of `h`, as a function on its indices. -/
abbrev hs (c : Dev nD) : S32768x512.Idx → EReal := m ((c : Thread nD τ).loc main_arg1)
/-- Argument 2, the update gate's input weights, as a function on its indices. -/
abbrev Wz (c : Dev nD) : S512x512.Idx → EReal := m ((c : Thread nD τ).loc main_arg2)
/-- Argument 3, the update gate's input bias, as a function on its indices. -/
abbrev bWz (c : Dev nD) : S512.Idx → EReal := m ((c : Thread nD τ).loc main_arg3)
/-- Argument 4, the reset gate's input weights, as a function on its indices. -/
abbrev Wr (c : Dev nD) : S512x512.Idx → EReal := m ((c : Thread nD τ).loc main_arg4)
/-- Argument 5, the reset gate's input bias, as a function on its indices. -/
abbrev bWr (c : Dev nD) : S512.Idx → EReal := m ((c : Thread nD τ).loc main_arg5)
/-- Argument 6, the candidate's input weights, as a function on its indices. -/
abbrev Wh (c : Dev nD) : S512x512.Idx → EReal := m ((c : Thread nD τ).loc main_arg6)
/-- Argument 7, the candidate's input bias, as a function on its indices. -/
abbrev bWh (c : Dev nD) : S512.Idx → EReal := m ((c : Thread nD τ).loc main_arg7)
/-- Argument 8, the update gate's state weights, as a function on its indices. -/
abbrev Uz (c : Dev nD) : S512x512.Idx → EReal := m ((c : Thread nD τ).loc main_arg8)
/-- Argument 9, the update gate's state bias, as a function on its indices. -/
abbrev bUz (c : Dev nD) : S512.Idx → EReal := m ((c : Thread nD τ).loc main_arg9)
/-- Argument 10, the reset gate's state weights, as a function on its indices. -/
abbrev Ur (c : Dev nD) : S512x512.Idx → EReal := m ((c : Thread nD τ).loc main_arg10)
/-- Argument 11, the reset gate's state bias, as a function on its indices. -/
abbrev bUr (c : Dev nD) : S512.Idx → EReal := m ((c : Thread nD τ).loc main_arg11)
/-- Argument 12, the candidate's state weights, as a function on its indices. -/
abbrev Uh (c : Dev nD) : S512x512.Idx → EReal := m ((c : Thread nD τ).loc main_arg12)
/-- Argument 13, the candidate's state bias, as a function on its indices. -/
abbrev bUh (c : Dev nD) : S512.Idx → EReal := m ((c : Thread nD τ).loc main_arg13)

/-! ## The host-written arrays, read at an index -/

/-- The update gate's input weights as the region finds them — the argument transposed, then cast to a narrower float format, which
    changes no value here — read at `(k, j)`: the argument at `(j, k)`. -/
theorem found_Wz_apply (c : Dev nD) (k j : Fin 512) :
    (V m c main_v1 : S512x512.Idx → EReal) (ix2 k j) = Wz m c (ix2 j k) := by
  have e : @Eq (S512x512.Idx → EReal) (V m c main_v1)
      (truncf (F := Ideal) .bf16 (transpose S512x512 [1, 0] (Wz m c) transposes_S512x512_S512x512_1_0) bitsLt_bf16_f32) := by
    dsimp only [Gen.V, Gen.hostOps0]; after_results
  exact (congrFun e (ix2 k j)).trans
    (transpose_ix2_apply (a := 512) (b := 512) (Wz m c) transposes_S512x512_S512x512_1_0 k j)

/-- The reset gate's input weights as the region finds them — the argument transposed, then cast to a narrower float format, which
    changes no value here — read at `(k, j)`: the argument at `(j, k)`. -/
theorem found_Wr_apply (c : Dev nD) (k j : Fin 512) :
    (V m c main_v3 : S512x512.Idx → EReal) (ix2 k j) = Wr m c (ix2 j k) := by
  have e : @Eq (S512x512.Idx → EReal) (V m c main_v3)
      (truncf (F := Ideal) .bf16 (transpose S512x512 [1, 0] (Wr m c) transposes_S512x512_S512x512_1_0) bitsLt_bf16_f32) := by
    dsimp only [Gen.V, Gen.hostOps0]; after_results
  exact (congrFun e (ix2 k j)).trans
    (transpose_ix2_apply (a := 512) (b := 512) (Wr m c) transposes_S512x512_S512x512_1_0 k j)

/-- The candidate's input weights as the region finds them — the argument transposed, then cast to a narrower float format, which
    changes no value here — read at `(k, j)`: the argument at `(j, k)`. -/
theorem found_Wh_apply (c : Dev nD) (k j : Fin 512) :
    (V m c main_v5 : S512x512.Idx → EReal) (ix2 k j) = Wh m c (ix2 j k) := by
  have e : @Eq (S512x512.Idx → EReal) (V m c main_v5)
      (truncf (F := Ideal) .bf16 (transpose S512x512 [1, 0] (Wh m c) transposes_S512x512_S512x512_1_0) bitsLt_bf16_f32) := by
    dsimp only [Gen.V, Gen.hostOps0]; after_results
  exact (congrFun e (ix2 k j)).trans
    (transpose_ix2_apply (a := 512) (b := 512) (Wh m c) transposes_S512x512_S512x512_1_0 k j)

/-- The update gate's state weights as the region finds them — the argument transposed, then cast to a narrower float format, which
    changes no value here — read at `(k, j)`: the argument at `(j, k)`. -/
theorem found_Uz_apply (c : Dev nD) (k j : Fin 512) :
    (V m c main_v7 : S512x512.Idx → EReal) (ix2 k j) = Uz m c (ix2 j k) := by
  have e : @Eq (S512x512.Idx → EReal) (V m c main_v7)
      (truncf (F := Ideal) .bf16 (transpose S512x512 [1, 0] (Uz m c) transposes_S512x512_S512x512_1_0) bitsLt_bf16_f32) := by
    dsimp only [Gen.V, Gen.hostOps0]; after_results
  exact (congrFun e (ix2 k j)).trans
    (transpose_ix2_apply (a := 512) (b := 512) (Uz m c) transposes_S512x512_S512x512_1_0 k j)

/-- The reset gate's state weights as the region finds them — the argument transposed, then cast to a narrower float format, which
    changes no value here — read at `(k, j)`: the argument at `(j, k)`. -/
theorem found_Ur_apply (c : Dev nD) (k j : Fin 512) :
    (V m c main_v9 : S512x512.Idx → EReal) (ix2 k j) = Ur m c (ix2 j k) := by
  have e : @Eq (S512x512.Idx → EReal) (V m c main_v9)
      (truncf (F := Ideal) .bf16 (transpose S512x512 [1, 0] (Ur m c) transposes_S512x512_S512x512_1_0) bitsLt_bf16_f32) := by
    dsimp only [Gen.V, Gen.hostOps0]; after_results
  exact (congrFun e (ix2 k j)).trans
    (transpose_ix2_apply (a := 512) (b := 512) (Ur m c) transposes_S512x512_S512x512_1_0 k j)

/-- The candidate's state weights as the region finds them — the argument transposed, then cast to a narrower float format, which
    changes no value here — read at `(k, j)`: the argument at `(j, k)`. -/
theorem found_Uh_apply (c : Dev nD) (k j : Fin 512) :
    (V m c main_v11 : S512x512.Idx → EReal) (ix2 k j) = Uh m c (ix2 j k) := by
  have e : @Eq (S512x512.Idx → EReal) (V m c main_v11)
      (truncf (F := Ideal) .bf16 (transpose S512x512 [1, 0] (Uh m c) transposes_S512x512_S512x512_1_0) bitsLt_bf16_f32) := by
    dsimp only [Gen.V, Gen.hostOps0]; after_results
  exact (congrFun e (ix2 k j)).trans
    (transpose_ix2_apply (a := 512) (b := 512) (Uh m c) transposes_S512x512_S512x512_1_0 k j)

/-- The update gate's bias row as the region finds it — the two bias vectors added, then laid out as one row — read at
    `(0, j)`: the sum of the two biases at `j`. -/
theorem found_bWz_bUz_apply (c : Dev nD) (j : Fin 512) :
    (V m c main_v13 : S1x512.Idx → EReal) (ix2 (0 : Fin 1) j) = bWz m c (ix1 j) + bUz m c (ix1 j) := by
  have e : @Eq (S1x512.Idx → EReal) (V m c main_v13)
      (shapeCast S1x512 (addf (F := Ideal) (φ := .f32) (bWz m c) (bUz m c)) shapeCasts_S512_S1x512) := by
    dsimp only [Gen.V, Gen.hostOps0]; after_results; rfl
  exact (congrFun e (ix2 (0 : Fin 1) j)).trans
    (shapeCast_a_1a_apply (a := 512) (addf (F := Ideal) (φ := .f32) (bWz m c) (bUz m c)) shapeCasts_S512_S1x512 0 j)

/-- The reset gate's bias row as the region finds it — the two bias vectors added, then laid out as one row — read at
    `(0, j)`: the sum of the two biases at `j`. -/
theorem found_bWr_bUr_apply (c : Dev nD) (j : Fin 512) :
    (V m c main_v15 : S1x512.Idx → EReal) (ix2 (0 : Fin 1) j) = bWr m c (ix1 j) + bUr m c (ix1 j) := by
  have e : @Eq (S1x512.Idx → EReal) (V m c main_v15)
      (shapeCast S1x512 (addf (F := Ideal) (φ := .f32) (bWr m c) (bUr m c)) shapeCasts_S512_S1x512) := by
    dsimp only [Gen.V, Gen.hostOps0]; after_results; rfl
  exact (congrFun e (ix2 (0 : Fin 1) j)).trans
    (shapeCast_a_1a_apply (a := 512) (addf (F := Ideal) (φ := .f32) (bWr m c) (bUr m c)) shapeCasts_S512_S1x512 0 j)

/-- The candidate's bias row as the region finds it — the two bias vectors added, then laid out as one row — read at
    `(0, j)`: the sum of the two biases at `j`. -/
theorem found_bWh_bUh_apply (c : Dev nD) (j : Fin 512) :
    (V m c main_v17 : S1x512.Idx → EReal) (ix2 (0 : Fin 1) j) = bWh m c (ix1 j) + bUh m c (ix1 j) := by
  have e : @Eq (S1x512.Idx → EReal) (V m c main_v17)
      (shapeCast S1x512 (addf (F := Ideal) (φ := .f32) (bWh m c) (bUh m c)) shapeCasts_S512_S1x512) := by
    dsimp only [Gen.V, Gen.hostOps0]; after_results; rfl
  exact (congrFun e (ix2 (0 : Fin 1) j)).trans
    (shapeCast_a_1a_apply (a := 512) (addf (F := Ideal) (φ := .f32) (bWh m c) (bUh m c)) shapeCasts_S512_S1x512 0 j)

end Cert.KernelIdeal.RegionArrays

end
-- ==== Proof.WholeArray.lean ====
/-
  From the blocks to the array: the kernel's result as one function of the arguments.

  The grid has 32 points. At point `t` the kernel holds rows `1024·t … 1024·t + 1023` of `x` and of `h` and the whole of
  every weight and bias array, and writes back rows `1024·t … 1024·t + 1023` of the result. Its store at row `p` of the
  block is the cell of that block row, which is row `1024·t + p` of the arguments: so what point `t` writes back is block
  `t` of the new state taken as ONE function of the fourteen arguments. Row `r` lies in the block of point `r / 1024`, so
  the 32 blocks cover the array, and the array ends holding that function everywhere.
-/
import proofs.«144782_j61375082660542_2_alg».proof.Proof.Gen.KernelIdeal.Value
import proofs.«144782_j61375082660542_2_alg».proof.Proof.KernelRow
import proofs.«144782_j61375082660542_2_alg».proof.Proof.RegionArrays
import Idealize.ShloMosaic.Lib.Pipeline.Value

noncomputable section

namespace Cert.KernelIdeal.Whole

open Cert.KernelIdeal Cert.KernelIdeal.Gen Cert.KernelIdeal.RegionArrays Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The index maps, decided over the 32 points -/

/-- The rows of `x`, the rows of `h` and the result move together: point `t`'s block is block `t` along the rows, and
    the one block along the columns. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_11.index t (0 : Fin 2) = t.val ∧ win0_11.index t (1 : Fin 2) = 0 :=
  (by decide +kernel : ∀ t : Fin grid0.N, _)

/-- The weight and bias windows stay on their one block at every point. -/
theorem idx_fixed : ∀ t : Fin cfg0.N,
    win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0 :=
  (by decide +kernel : ∀ t : Fin grid0.N, _)

/-- The 32 points. -/
theorem point_lt (t : Fin cfg0.N) : t.val < 32 := Nat.lt_of_lt_of_eq t.isLt N_0

/-- The row of the arrays that row `p` of point `t`'s block is. -/
def rowOf (t : Fin cfg0.N) (p : Fin 1024) : Fin 32768 :=
  ⟨t.val * 1024 + p.val, by have := point_lt t; have := p.isLt; omega⟩

/-! ## Each window's block, read where the result's block says -/

/-- Row `p` of point `t`'s block of `x` is row `1024·t + p` of `x`. -/
theorem block0_apply (c : Dev nD) (t : Fin cfg0.N) (p : Fin 1024) (k : Fin 512) :
    iblk m c 0 t (ix2 p k) = xs m c (ix2 (rowOf t p) k) := by
  obtain ⟨e0, e1, e2, e3, e4, e5⟩ := idx_rows t
  show V m c main_arg0 (((cfg0.win 0).blk t).view.emb (ix2 p k)) = m ((c : Thread nD τ).loc main_arg0) (ix2 (rowOf t p) k)
  rw [V_main_arg0]
  refine congrArg (m ((c : Thread nD τ).loc main_arg0)) (funext fun a => Fin.ext ?_)
  match a with
  | ⟨0, _⟩ => show win0_0.index t (0 : Fin 2) * 1024 + 1 * p.val = t.val * 1024 + p.val; omega
  | ⟨1, _⟩ => show win0_0.index t (1 : Fin 2) * 512 + 1 * k.val = k.val; omega

/-- Row `p` of point `t`'s block of `h` is row `1024·t + p` of `h`. -/
theorem block1_apply (c : Dev nD) (t : Fin cfg0.N) (p : Fin 1024) (k : Fin 512) :
    iblk m c 1 t (ix2 p k) = hs m c (ix2 (rowOf t p) k) := by
  obtain ⟨e0, e1, e2, e3, e4, e5⟩ := idx_rows t
  show V m c main_arg1 (((cfg0.win 1).blk t).view.emb (ix2 p k)) = m ((c : Thread nD τ).loc main_arg1) (ix2 (rowOf t p) k)
  rw [V_main_arg1]
  refine congrArg (m ((c : Thread nD τ).loc main_arg1)) (funext fun a => Fin.ext ?_)
  match a with
  | ⟨0, _⟩ => show win0_1.index t (0 : Fin 2) * 1024 + 1 * p.val = t.val * 1024 + p.val; omega
  | ⟨1, _⟩ => show win0_1.index t (1 : Fin 2) * 512 + 1 * k.val = k.val; omega

/-- Window 2 holds the whole of its weight array at every point: read at `(k, j)` it is `Wz` at `(j, k)`. -/
theorem block2_apply (c : Dev nD) (t : Fin cfg0.N) (k j : Fin 512) :
    iblk m c 2 t (ix2 k j) = Wz m c (ix2 j k) := by
  obtain ⟨f2a, f2b, f3a, f3b, f4a, f4b, f5a, f5b, f6a, f6b, f7a, f7b, f8a, f8b, f9a, f9b, f10a, f10b⟩ := idx_fixed t
  refine Eq.trans ?_ (found_Wz_apply m c k j)
  show V m c main_v1 (((cfg0.win 2).blk t).view.emb (ix2 k j)) = V m c main_v1 (ix2 k j)
  refine congrArg (V m c main_v1) (funext fun a => Fin.ext ?_)
  match a with
  | ⟨0, _⟩ => show win0_2.index t (0 : Fin 2) * 512 + 1 * k.val = k.val; omega
  | ⟨1, _⟩ => show win0_2.index t (1 : Fin 2) * 512 + 1 * j.val = j.val; omega

/-- Window 3 holds the whole of its weight array at every point: read at `(k, j)` it is `Wr` at `(j, k)`. -/
theorem block3_apply (c : Dev nD) (t : Fin cfg0.N) (k j : Fin 512) :
    iblk m c 3 t (ix2 k j) = Wr m c (ix2 j k) := by
  obtain ⟨f2a, f2b, f3a, f3b, f4a, f4b, f5a, f5b, f6a, f6b, f7a, f7b, f8a, f8b, f9a, f9b, f10a, f10b⟩ := idx_fixed t
  refine Eq.trans ?_ (found_Wr_apply m c k j)
  show V m c main_v3 (((cfg0.win 3).blk t).view.emb (ix2 k j)) = V m c main_v3 (ix2 k j)
  refine congrArg (V m c main_v3) (funext fun a => Fin.ext ?_)
  match a with
  | ⟨0, _⟩ => show win0_3.index t (0 : Fin 2) * 512 + 1 * k.val = k.val; omega
  | ⟨1, _⟩ => show win0_3.index t (1 : Fin 2) * 512 + 1 * j.val = j.val; omega

/-- Window 4 holds the whole of its weight array at every point: read at `(k, j)` it is `Wh` at `(j, k)`. -/
theorem block4_apply (c : Dev nD) (t : Fin cfg0.N) (k j : Fin 512) :
    iblk m c 4 t (ix2 k j) = Wh m c (ix2 j k) := by
  obtain ⟨f2a, f2b, f3a, f3b, f4a, f4b, f5a, f5b, f6a, f6b, f7a, f7b, f8a, f8b, f9a, f9b, f10a, f10b⟩ := idx_fixed t
  refine Eq.trans ?_ (found_Wh_apply m c k j)
  show V m c main_v5 (((cfg0.win 4).blk t).view.emb (ix2 k j)) = V m c main_v5 (ix2 k j)
  refine congrArg (V m c main_v5) (funext fun a => Fin.ext ?_)
  match a with
  | ⟨0, _⟩ => show win0_4.index t (0 : Fin 2) * 512 + 1 * k.val = k.val; omega
  | ⟨1, _⟩ => show win0_4.index t (1 : Fin 2) * 512 + 1 * j.val = j.val; omega

/-- Window 5 holds the whole of its weight array at every point: read at `(k, j)` it is `Uz` at `(j, k)`. -/
theorem block5_apply (c : Dev nD) (t : Fin cfg0.N) (k j : Fin 512) :
    iblk m c 5 t (ix2 k j) = Uz m c (ix2 j k) := by
  obtain ⟨f2a, f2b, f3a, f3b, f4a, f4b, f5a, f5b, f6a, f6b, f7a, f7b, f8a, f8b, f9a, f9b, f10a, f10b⟩ := idx_fixed t
  refine Eq.trans ?_ (found_Uz_apply m c k j)
  show V m c main_v7 (((cfg0.win 5).blk t).view.emb (ix2 k j)) = V m c main_v7 (ix2 k j)
  refine congrArg (V m c main_v7) (funext fun a => Fin.ext ?_)
  match a with
  | ⟨0, _⟩ => show win0_5.index t (0 : Fin 2) * 512 + 1 * k.val = k.val; omega
  | ⟨1, _⟩ => show win0_5.index t (1 : Fin 2) * 512 + 1 * j.val = j.val; omega

/-- Window 6 holds the whole of its weight array at every point: read at `(k, j)` it is `Ur` at `(j, k)`. -/
theorem block6_apply (c : Dev nD) (t : Fin cfg0.N) (k j : Fin 512) :
    iblk m c 6 t (ix2 k j) = Ur m c (ix2 j k) := by
  obtain ⟨f2a, f2b, f3a, f3b, f4a, f4b, f5a, f5b, f6a, f6b, f7a, f7b, f8a, f8b, f9a, f9b, f10a, f10b⟩ := idx_fixed t
  refine Eq.trans ?_ (found_Ur_apply m c k j)
  show V m c main_v9 (((cfg0.win 6).blk t).view.emb (ix2 k j)) = V m c main_v9 (ix2 k j)
  refine congrArg (V m c main_v9) (funext fun a => Fin.ext ?_)
  match a with
  | ⟨0, _⟩ => show win0_6.index t (0 : Fin 2) * 512 + 1 * k.val = k.val; omega
  | ⟨1, _⟩ => show win0_6.index t (1 : Fin 2) * 512 + 1 * j.val = j.val; omega

/-- Window 7 holds the whole of its weight array at every point: read at `(k, j)` it is `Uh` at `(j, k)`. -/
theorem block7_apply (c : Dev nD) (t : Fin cfg0.N) (k j : Fin 512) :
    iblk m c 7 t (ix2 k j) = Uh m c (ix2 j k) := by
  obtain ⟨f2a, f2b, f3a, f3b, f4a, f4b, f5a, f5b, f6a, f6b, f7a, f7b, f8a, f8b, f9a, f9b, f10a, f10b⟩ := idx_fixed t
  refine Eq.trans ?_ (found_Uh_apply m c k j)
  show V m c main_v11 (((cfg0.win 7).blk t).view.emb (ix2 k j)) = V m c main_v11 (ix2 k j)
  refine congrArg (V m c main_v11) (funext fun a => Fin.ext ?_)
  match a with
  | ⟨0, _⟩ => show win0_7.index t (0 : Fin 2) * 512 + 1 * k.val = k.val; omega
  | ⟨1, _⟩ => show win0_7.index t (1 : Fin 2) * 512 + 1 * j.val = j.val; omega

/-- Window 8 holds its one bias row at every point: read at `(0, j)` it is `bWz + bUz` at `j`. -/
theorem block8_apply (c : Dev nD) (t : Fin cfg0.N) (j : Fin 512) :
    iblk m c 8 t (ix2 (0 : Fin 1) j) = bWz m c (ix1 j) + bUz m c (ix1 j) := by
  obtain ⟨f2a, f2b, f3a, f3b, f4a, f4b, f5a, f5b, f6a, f6b, f7a, f7b, f8a, f8b, f9a, f9b, f10a, f10b⟩ := idx_fixed t
  refine Eq.trans ?_ (found_bWz_bUz_apply m c j)
  show V m c main_v13 (((cfg0.win 8).blk t).view.emb (ix2 (0 : Fin 1) j)) = V m c main_v13 (ix2 (0 : Fin 1) j)
  refine congrArg (V m c main_v13) (funext fun a => Fin.ext ?_)
  match a with
  | ⟨0, _⟩ => show win0_8.index t (0 : Fin 2) * 1 + 1 * 0 = 0; omega
  | ⟨1, _⟩ => show win0_8.index t (1 : Fin 2) * 512 + 1 * j.val = j.val; omega

/-- Window 9 holds its one bias row at every point: read at `(0, j)` it is `bWr + bUr` at `j`. -/
theorem block9_apply (c : Dev nD) (t : Fin cfg0.N) (j : Fin 512) :
    iblk m c 9 t (ix2 (0 : Fin 1) j) = bWr m c (ix1 j) + bUr m c (ix1 j) := by
  obtain ⟨f2a, f2b, f3a, f3b, f4a, f4b, f5a, f5b, f6a, f6b, f7a, f7b, f8a, f8b, f9a, f9b, f10a, f10b⟩ := idx_fixed t
  refine Eq.trans ?_ (found_bWr_bUr_apply m c j)
  show V m c main_v15 (((cfg0.win 9).blk t).view.emb (ix2 (0 : Fin 1) j)) = V m c main_v15 (ix2 (0 : Fin 1) j)
  refine congrArg (V m c main_v15) (funext fun a => Fin.ext ?_)
  match a with
  | ⟨0, _⟩ => show win0_9.index t (0 : Fin 2) * 1 + 1 * 0 = 0; omega
  | ⟨1, _⟩ => show win0_9.index t (1 : Fin 2) * 512 + 1 * j.val = j.val; omega

/-- Window 10 holds its one bias row at every point: read at `(0, j)` it is `bWh + bUh` at `j`. -/
theorem block10_apply (c : Dev nD) (t : Fin cfg0.N) (j : Fin 512) :
    iblk m c 10 t (ix2 (0 : Fin 1) j) = bWh m c (ix1 j) + bUh m c (ix1 j) := by
  obtain ⟨f2a, f2b, f3a, f3b, f4a, f4b, f5a, f5b, f6a, f6b, f7a, f7b, f8a, f8b, f9a, f9b, f10a, f10b⟩ := idx_fixed t
  refine Eq.trans ?_ (found_bWh_bUh_apply m c j)
  show V m c main_v17 (((cfg0.win 10).blk t).view.emb (ix2 (0 : Fin 1) j)) = V m c main_v17 (ix2 (0 : Fin 1) j)
  refine congrArg (V m c main_v17) (funext fun a => Fin.ext ?_)
  match a with
  | ⟨0, _⟩ => show win0_10.index t (0 : Fin 2) * 1 + 1 * 0 = 0; omega
  | ⟨1, _⟩ => show win0_10.index t (1 : Fin 2) * 512 + 1 * j.val = j.val; omega

/-- Entry `(p, q)` of the result's block at point `t` is entry `(1024·t + p, q)` of the result. -/
theorem out_emb (t : Fin cfg0.N) (p : Fin 1024) (q : Fin 512) :
    ((cfg0.win 11).blk t).view.emb (ix2 p q) = (ix2 (rowOf t p) q : S32768x512.Idx) := by
  obtain ⟨e0, e1, e2, e3, e4, e5⟩ := idx_rows t
  refine funext fun a => Fin.ext ?_
  match a with
  | ⟨0, _⟩ => show win0_11.index t (0 : Fin 2) * 1024 + 1 * p.val = t.val * 1024 + p.val; omega
  | ⟨1, _⟩ => show win0_11.index t (1 : Fin 2) * 512 + 1 * q.val = q.val; omega

/-! ## What a point writes back -/

theorem zeros : (![0, 0] : Fin 2 → Nat) = fun _ => 0 := funext fun a => by fin_cases a <;> rfl

/-- The body's store at an entry of point `t`'s block is the new state at the entry of the array it is written to. -/
theorem stored_apply (c : Dev nD) (t : Fin cfg0.N) (p : Fin 1024) (q : Fin 512) :
    k0_pay1 (F := Ideal) (iblk m c 1 t) (k0_pay2 (iblk m c 0 t)) (k0_pay4 (iblk m c 4 t)) (k0_pay5 (iblk m c 7 t)) (k0_pay6 (iblk m c 10 t))
        (k0_pay7 (iblk m c 0 t) (iblk m c 1 t) (iblk m c 3 t) (iblk m c 6 t) (iblk m c 9 t))
        (k0_pay8 (iblk m c 0 t) (iblk m c 1 t) (iblk m c 2 t) (iblk m c 5 t) (iblk m c 8 t)) (ix2 p q)
      = Cert.Gru.newState (xs m c) (hs m c) (Wz m c) (bWz m c) (Wr m c) (bWr m c) (Wh m c) (bWh m c) (Uz m c) (bUz m c) (Ur m c) (bUr m c) (Uh m c) (bUh m c) (ix2 (rowOf t p) q) := by
  refine (Cert.KernelIdeal.Row.store_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) p q).trans ?_
  simp only [block0_apply, block1_apply, block2_apply, block3_apply, block4_apply, block5_apply, block6_apply, block7_apply,
    block8_apply, block9_apply, block10_apply]
  rfl

/-- WHAT POINT `t` WRITES BACK is block `t` of the new state of the arguments. -/
theorem flushed_eq (c : Dev nD) (t : Fin cfg0.N) :
    (dats m 0 c).flushed 11 t
      = ((cfg0.win 11).blk t).view.read (Elt Ideal) (Cert.Gru.newState (xs m c) (hs m c) (Wz m c) (bWz m c) (Wr m c) (bWr m c) (Wh m c) (bWh m c) (Uz m c) (bUz m c) (Ur m c) (bUr m c) (Uh m c) (bUh m c)) := by
  rw [Cert.KernelIdeal.Value.flushed11]
  unfold out0_11
  rw [View.canon_unit_zero zeros]
  simp only [View.ld_unit_zero (S := S1024x512) zeros, View.ld_unit_zero (S := S512x512) zeros, View.ld_unit_zero (S := S1x512) zeros]
  funext y
  obtain ⟨p, q, rfl⟩ : ∃ (p : Fin 1024) (q : Fin 512), y = ix2 p q := ⟨y 0, y 1, eq_ix2 y⟩
  show k0_pay1 (F := Ideal) (iblk m c 1 t) (k0_pay2 (iblk m c 0 t)) (k0_pay4 (iblk m c 4 t)) (k0_pay5 (iblk m c 7 t)) (k0_pay6 (iblk m c 10 t))
        (k0_pay7 (iblk m c 0 t) (iblk m c 1 t) (iblk m c 3 t) (iblk m c 6 t) (iblk m c 9 t))
        (k0_pay8 (iblk m c 0 t) (iblk m c 1 t) (iblk m c 2 t) (iblk m c 5 t) (iblk m c 8 t)) (ix2 p q)
      = Cert.Gru.newState (xs m c) (hs m c) (Wz m c) (bWz m c) (Wr m c) (bWr m c) (Wh m c) (bWh m c) (Uz m c) (bUz m c) (Ur m c) (bUr m c) (Uh m c) (bUh m c) (((cfg0.win 11).blk t).view.emb (ix2 p q))
  rw [out_emb]
  exact stored_apply m c t p q

/-! ## The cover, and the array -/

/-- An index of the array is in point `t`'s block iff each coordinate is in the block's range on its axis. -/
theorem mem_block (t : Fin cfg0.N) (i : S32768x512.Idx) :
    i ∈ ((cfg0.win 11).blk t).view.set ↔ ∀ a : Fin 2, win0_11.index t a * S1024x512.size a ≤ (i a).val
      ∧ (i a).val < win0_11.index t a * S1024x512.size a + S1024x512.size a := by
  show i ∈ ((View.whole main_v18).slice (win0_11.rect t)).set ↔ _
  rw [View.set_slice_whole, Rect.mem_set_unit]
  exact Iff.rfl

/-- Every index of the array is in the block of the point its row divided by 1024 names. -/
theorem covered (i : S32768x512.Idx) :
    ∃ t : Fin cfg0.N, (cfg0.win 11).flush t = true ∧ i ∈ ((cfg0.win 11).blk t).view.set := by
  have hi0 : (i 0).val < 32768 := (i 0).isLt
  have hi1 : (i 1).val < 512 := (i 1).isLt
  have hN : cfg0.N = 32 := N_0
  have ht : (i 0).val / 1024 < cfg0.N := by rw [hN]; omega
  obtain ⟨e0, e1, e2, e3, e4, e5⟩ := idx_rows ⟨(i 0).val / 1024, ht⟩
  have e4' : win0_11.index ⟨(i 0).val / 1024, ht⟩ (0 : Fin 2) = (i 0).val / 1024 := e4
  refine ⟨⟨(i 0).val / 1024, ht⟩, flush0_11 _, ?_⟩
  rw [mem_block]
  intro a
  match a with
  | ⟨0, _⟩ =>
    show win0_11.index ⟨(i 0).val / 1024, ht⟩ (0 : Fin 2) * 1024 ≤ (i 0).val
      ∧ (i 0).val < win0_11.index ⟨(i 0).val / 1024, ht⟩ (0 : Fin 2) * 1024 + 1024
    omega
  | ⟨1, _⟩ =>
    show win0_11.index ⟨(i 0).val / 1024, ht⟩ (1 : Fin 2) * 512 ≤ (i 1).val
      ∧ (i 1).val < win0_11.index ⟨(i 0).val / 1024, ht⟩ (1 : Fin 2) * 512 + 512
    omega

/-- THE ARRAY after the run is the new state of the arguments. -/
theorem final (c : Dev nD) :
    (dats m 0 c).arrAt 11 cfg0.N = Cert.Gru.newState (xs m c) (hs m c) (Wz m c) (bWz m c) (Wr m c) (bWr m c) (Wh m c) (bWh m c) (Uz m c) (bUz m c) (Ur m c) (bUr m c) (Uh m c) (bUh m c) :=
  (dats m 0 c).arrAt_eq_of_cover 11 (Cert.Gru.newState (xs m c) (hs m c) (Wz m c) (bWz m c) (Wr m c) (bWr m c) (Wh m c) (bWh m c) (Uz m c) (bUz m c) (Ur m c) (bUr m c) (Uh m c) (bUh m c))
    (fun t _ => flushed_eq m c t) (fun i => covered i)

/-! ## The run, read -/

/-- Every weakly fair execution of the kernel's program terminates with the result array at the new state of the
    arguments, the arguments unchanged. -/
theorem run : θ_run defs (onTc (τ := τ) (main (F := Ideal))) ⟨m, fun _ => 0, ρ⟩ fun r => ∀ c : Dev nD,
      r.2.mem ((c : Thread nD τ).loc main_v18) = Cert.Gru.newState (xs m c) (hs m c) (Wz m c) (bWz m c) (Wr m c) (bWr m c) (Wh m c) (bWh m c) (Uz m c) (bUz m c) (Ur m c) (bUr m c) (Uh m c) (bUh m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (Cert.KernelIdeal.Value.run_blocks m ρ)

end Cert.KernelIdeal.Whole

end
-- ==== Proof.LibLogisticQuotient.lean ====
/-
  The logistic function spelled as a quotient.

  On the extended reals the logistic function is `σ(v) = 1 / (1 + e⁻ᵛ)`, with `σ(−∞) = 0` and `σ(+∞) = 1` by the
  conventions of the quotient and of the exponential at the infinities. A program that does not have the function
  as one operation spells it out: negate, exponentiate, add the number one, divide the number one by the sum, both ones
  given by their binary32 word `0x3F800000`. That expression is the logistic function at every extended real — it is
  the function's definition once the word is read as the number one.
-/
import Idealize.ShloMosaic.PureOps.Ideal

noncomputable section

namespace Cert.Lib

open Idealize.ShloMosaic

/-- The binary32 word `0x3F800000` is the number one. -/
theorem one_f32 : Ideal.ofBits .f32 0x3F800000#32 = 1 := by
  simp [Ideal.ofBits, Ideal.ieee, -EReal.coe_mul]; norm_num

/-- THE QUOTIENT `1 / (1 + e⁻ᵛ)`, both ones given by their binary32 word, is the logistic function of `v`, at the
    infinities too. -/
theorem quotient_logistic (v : EReal) :
    Ideal.div (Ideal.ofBits .f32 0x3F800000#32) (Ideal.ofBits .f32 0x3F800000#32 + Ideal.exp (-v)) = Ideal.logistic v := by
  rw [one_f32]; rfl

/-- The same in the host's operations at the ideal values: divide, add, exponential, negate. -/
theorem host_quotient_logistic (v : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf v)))
      = FloatOps.logistic v :=
  quotient_logistic v

end Cert.Lib

end
-- ==== Proof.RefRow.lean ====
/-
  What the reference computes, read at one entry.

  The reference multiplies the whole 32768-row arrays of `x` and `h` by each transposed weight matrix, adds each gate's two
  bias vectors one after the other (each spread over the rows), and spells the logistic function as the quotient
  `1 / (1 + e⁻ᵛ)`. Read at row `i` and column `j` its result is the gated-recurrent-unit cell of row `i`, with each gate's bias
  the sum of its two bias vectors: a host product is a plain sum over the 512 contraction positions, a transposed
  matrix reads the original at the swapped index, four summands regroup by commutativity and associativity alone, and
  the spelled quotient is the logistic function.
-/
import proofs.«144782_j61375082660542_2_alg».proof.Proof.Gen.ReferenceIdeal.Read
import proofs.«144782_j61375082660542_2_alg».proof.Proof.GruCell
import proofs.«144782_j61375082660542_2_alg».proof.Proof.LibPlainDot
import proofs.«144782_j61375082660542_2_alg».proof.Proof.LibLogisticQuotient
import Idealize.ShloMosaic.Lib.ValueIdx
import Idealize.ShloMosaic.Lib.ValueLayout
import Idealize.ShloMosaic.Lib.Pipeline.Value

noncomputable section

namespace Cert.ReferenceIdeal.Row

open Cert.ReferenceIdeal Cert.ReferenceIdeal.Gen Cert.ReferenceIdeal.Read Idealize.ShloMosaic Idealize.ShloMosaic.ValueIdx

/-- The reference's products are plain ones: 32768×512 by 512×512. -/
theorem dims_plain : dot_S32768x512_S512x512_S32768x512_1_0_0_1_n_n = DotDims.plain 32768 512 512 := rfl

/-- A product of the rows with a transposed weight matrix at `(i, j)`: the sum over `k` of `l[i,k]·W[j,k]`. -/
theorem product_apply (l : FVec Ideal S32768x512 .f32) (W : FVec Ideal S512x512 .f32) (i : Fin 32768) (j : Fin 512) :
    Host.dotGeneral dot_S32768x512_S512x512_S32768x512_1_0_0_1_n_n none l
        (transpose S512x512 [1, 0] W transposes_S512x512_S512x512_1_0) (ix2 i j)
      = ∑ k : Fin 512, l (ix2 i k) * W (ix2 j k) := by
  rw [dims_plain]
  refine (Cert.Lib.plain_dotGeneral_apply 32768 512 512 none l _ i j).trans ?_
  exact Finset.sum_congr rfl fun k _ =>
    congrArg (l (ix2 i k) * ·) (transpose_ix2_apply (a := 512) (b := 512) W transposes_S512x512_S512x512_1_0 k j)

/-- A bias vector laid out as one row and spread over the 32768 rows reads, at `(i, j)`, the vector at `j`. -/
theorem bias_spread_apply (b : FVec Ideal S512 .f32) (i : Fin 32768) (j : Fin 512) :
    broadcastInDim S32768x512 ![0, 1] bcast_S1x512_S32768x512_0_1 (broadcastInDim S1x512 ![1] bcast_S512_S1x512_1 b) (ix2 i j)
      = b (ix1 j) :=
  (val_main_v3_apply (F := Ideal) b (ix2 i j)).trans
    ((val_main_v2_apply (F := Ideal) b _).trans (congrArg b (funext fun a => match a with | ⟨0, _⟩ => rfl)))

/-- A gate's pre-activation as the reference adds it up — product, bias, product, bias — at `(i, j)`: the row's
    pre-activation at column `j` with the two biases summed. -/
theorem gate_apply (x h : FVec Ideal S32768x512 .f32) (W U : FVec Ideal S512x512 .f32) (b b' : FVec Ideal S512 .f32)
    (i : Fin 32768) (j : Fin 512) :
    addf (addf (addf (Host.dotGeneral dot_S32768x512_S512x512_S32768x512_1_0_0_1_n_n none x (transpose S512x512 [1, 0] W transposes_S512x512_S512x512_1_0))
                     (broadcastInDim S32768x512 ![0, 1] bcast_S1x512_S32768x512_0_1 (broadcastInDim S1x512 ![1] bcast_S512_S1x512_1 b)))
               (Host.dotGeneral dot_S32768x512_S512x512_S32768x512_1_0_0_1_n_n none h (transpose S512x512 [1, 0] U transposes_S512x512_S512x512_1_0)))
         (broadcastInDim S32768x512 ![0, 1] bcast_S1x512_S32768x512_0_1 (broadcastInDim S1x512 ![1] bcast_S512_S1x512_1 b')) (ix2 i j)
      = Cert.Gru.pre (fun k => x (ix2 i k)) (fun k => h (ix2 i k)) (fun k j => W (ix2 j k)) (fun k j => U (ix2 j k))
          (fun j => b (ix1 j) + b' (ix1 j)) j := by
  show Host.dotGeneral dot_S32768x512_S512x512_S32768x512_1_0_0_1_n_n none x (transpose S512x512 [1, 0] W transposes_S512x512_S512x512_1_0) (ix2 i j)
      + broadcastInDim S32768x512 ![0, 1] bcast_S1x512_S32768x512_0_1 (broadcastInDim S1x512 ![1] bcast_S512_S1x512_1 b) (ix2 i j)
      + Host.dotGeneral dot_S32768x512_S512x512_S32768x512_1_0_0_1_n_n none h (transpose S512x512 [1, 0] U transposes_S512x512_S512x512_1_0) (ix2 i j)
      + broadcastInDim S32768x512 ![0, 1] bcast_S1x512_S32768x512_0_1 (broadcastInDim S1x512 ![1] bcast_S512_S1x512_1 b') (ix2 i j) = _
  rw [product_apply, product_apply, bias_spread_apply, bias_spread_apply]
  exact Cert.Gru.pre_two_biases (fun k => x (ix2 i k)) (fun k => h (ix2 i k)) (fun k j => W (ix2 j k)) (fun k j => U (ix2 j k))
    (fun j => b (ix1 j)) (fun j => b' (ix1 j)) j

/-- The update gate at `(i, j)`. -/
theorem update_gate_apply (x0 x1 : FVec Ideal S32768x512 .f32) (x2 : FVec Ideal S512x512 .f32) (x3 : FVec Ideal S512 .f32)
    (x8 : FVec Ideal S512x512 .f32) (x9 : FVec Ideal S512 .f32) (i : Fin 32768) (j : Fin 512) :
    val_main_v16 (F := Ideal) x0 x1 x2 x3 x8 x9 (ix2 i j)
      = Ideal.logistic (Cert.Gru.pre (fun k => x0 (ix2 i k)) (fun k => x1 (ix2 i k)) (fun k j => x2 (ix2 j k))
          (fun k j => x8 (ix2 j k)) (fun j => x3 (ix1 j) + x9 (ix1 j)) j) := by
  have hg : val_main_v10 (F := Ideal) x0 x1 x2 x3 x8 x9 (ix2 i j) = _ := gate_apply x0 x1 x2 x8 x3 x9 i j
  rw [val_main_v16_apply, val_main_v15_apply, val_main_cst_0_apply, val_main_v14_apply, val_main_v13_apply, val_main_cst_apply,
    val_main_v12_apply, val_main_v11_apply, hg]
  exact Cert.Lib.quotient_logistic _

/-- The reset gate at `(i, k)`. -/
theorem reset_gate_apply (x0 x1 : FVec Ideal S32768x512 .f32) (x4 : FVec Ideal S512x512 .f32) (x5 : FVec Ideal S512 .f32)
    (x10 : FVec Ideal S512x512 .f32) (x11 : FVec Ideal S512 .f32) (i : Fin 32768) (k : Fin 512) :
    val_main_v33 (F := Ideal) x0 x1 x4 x5 x10 x11 (ix2 i k)
      = Cert.Gru.reset (fun l => x0 (ix2 i l)) (fun l => x1 (ix2 i l)) (fun l j => x4 (ix2 j l))
          (fun l j => x10 (ix2 j l)) (fun j => x5 (ix1 j) + x11 (ix1 j)) k := by
  have hg : val_main_v27 (F := Ideal) x0 x1 x4 x5 x10 x11 (ix2 i k) = _ := gate_apply x0 x1 x4 x10 x5 x11 i k
  rw [val_main_v33_apply, val_main_v32_apply, val_main_cst_2_apply, val_main_v31_apply, val_main_v30_apply, val_main_cst_1_apply,
    val_main_v29_apply, val_main_v28_apply, hg]
  exact Cert.Lib.quotient_logistic _

/-- The candidate's pre-activation at `(i, j)`: the state row enters multiplied by the reset gate. -/
theorem candidate_pre_apply (x0 x1 : FVec Ideal S32768x512 .f32) (x4 : FVec Ideal S512x512 .f32) (x5 : FVec Ideal S512 .f32)
    (x6 : FVec Ideal S512x512 .f32) (x7 : FVec Ideal S512 .f32) (x10 : FVec Ideal S512x512 .f32) (x11 : FVec Ideal S512 .f32)
    (x12 : FVec Ideal S512x512 .f32) (x13 : FVec Ideal S512 .f32) (i : Fin 32768) (j : Fin 512) :
    val_main_v45 (F := Ideal) x0 x1 x4 x5 x6 x7 x10 x11 x12 x13 (ix2 i j)
      = Cert.Gru.pre (fun k => x0 (ix2 i k))
          (fun k => x1 (ix2 i k) * Cert.Gru.reset (fun l => x0 (ix2 i l)) (fun l => x1 (ix2 i l)) (fun l j => x4 (ix2 j l))
            (fun l j => x10 (ix2 j l)) (fun j => x5 (ix1 j) + x11 (ix1 j)) k)
          (fun k j => x6 (ix2 j k)) (fun k j => x12 (ix2 j k)) (fun j => x7 (ix1 j) + x13 (ix1 j)) j := by
  refine (gate_apply x0 (val_main_v39 (F := Ideal) x0 x1 x4 x5 x10 x11) x6 x12 x7 x13 i j).trans ?_
  refine congrArg (fun hr => Cert.Gru.pre (fun k => x0 (ix2 i k)) hr (fun k j => x6 (ix2 j k)) (fun k j => x12 (ix2 j k))
    (fun j => x7 (ix1 j) + x13 (ix1 j)) j) (funext fun k => ?_)
  rw [val_main_v39_apply, reset_gate_apply]
  rfl

/-- THE REFERENCE'S RESULT AT `(i, j)` is the cell of row `i` of `x` and `h` at column `j`, each weight matrix read
    transposed and each gate's bias the sum of its two bias vectors. -/
theorem result_apply (x0 x1 : FVec Ideal S32768x512 .f32) (x2 : FVec Ideal S512x512 .f32) (x3 : FVec Ideal S512 .f32)
    (x4 : FVec Ideal S512x512 .f32) (x5 : FVec Ideal S512 .f32) (x6 : FVec Ideal S512x512 .f32) (x7 : FVec Ideal S512 .f32)
    (x8 : FVec Ideal S512x512 .f32) (x9 : FVec Ideal S512 .f32) (x10 : FVec Ideal S512x512 .f32) (x11 : FVec Ideal S512 .f32)
    (x12 : FVec Ideal S512x512 .f32) (x13 : FVec Ideal S512 .f32) (i : Fin 32768) (j : Fin 512) :
    val_main_v49 (F := Ideal) x0 x1 x2 x3 x4 x5 x6 x7 x8 x9 x10 x11 x12 x13 (ix2 i j)
      = Cert.Gru.cell (fun k => x0 (ix2 i k)) (fun k => x1 (ix2 i k))
          (fun k j => x2 (ix2 j k)) (fun k j => x4 (ix2 j k)) (fun k j => x6 (ix2 j k))
          (fun k j => x8 (ix2 j k)) (fun k j => x10 (ix2 j k)) (fun k j => x12 (ix2 j k))
          (fun j => x3 (ix1 j) + x9 (ix1 j)) (fun j => x5 (ix1 j) + x11 (ix1 j)) (fun j => x7 (ix1 j) + x13 (ix1 j)) j := by
  rw [val_main_v49_apply, val_main_v48_apply, val_main_v47_apply, val_main_v46_apply, update_gate_apply, candidate_pre_apply]
  rfl

/-- So the reference's result array is the new state of its fourteen operands. -/
theorem result_eq (x0 x1 : FVec Ideal S32768x512 .f32) (x2 : FVec Ideal S512x512 .f32) (x3 : FVec Ideal S512 .f32)
    (x4 : FVec Ideal S512x512 .f32) (x5 : FVec Ideal S512 .f32) (x6 : FVec Ideal S512x512 .f32) (x7 : FVec Ideal S512 .f32)
    (x8 : FVec Ideal S512x512 .f32) (x9 : FVec Ideal S512 .f32) (x10 : FVec Ideal S512x512 .f32) (x11 : FVec Ideal S512 .f32)
    (x12 : FVec Ideal S512x512 .f32) (x13 : FVec Ideal S512 .f32) :
    val_main_v49 (F := Ideal) x0 x1 x2 x3 x4 x5 x6 x7 x8 x9 x10 x11 x12 x13 = Cert.Gru.newState x0 x1 x2 x3 x4 x5 x6 x7 x8 x9 x10 x11 x12 x13 := by
  funext y
  obtain ⟨i, j, rfl⟩ : ∃ (i : Fin 32768) (j : Fin 512), y = ix2 i j := ⟨y 0, y 1, eq_ix2 y⟩
  exact result_apply x0 x1 x2 x3 x4 x5 x6 x7 x8 x9 x10 x11 x12 x13 i j

end Cert.ReferenceIdeal.Row

end
-- ==== Proof.lean ====
/-
  A gated-recurrent-unit cell over 32768 rows: the kernel's result is the reference's.

  Both programs compute, for every row `i` and column `j`,

      h' = h + z·(tanh(x·Whᵀ + (h ⊙ r)·Uhᵀ + b_h) − h),   z = σ(x·Wzᵀ + h·Uzᵀ + b_z),   r = σ(x·Wrᵀ + h·Urᵀ + b_r),

  and return it twice. They differ in three ways, none of which changes a value on the extended reals. The kernel
  works on 32 blocks of 1024 rows where the reference works on the whole arrays (Proof/WholeArray.lean: the blocks
  are restrictions of one function of the arguments and cover the array). The kernel adds each gate's two bias
  vectors first and the sum to the products afterwards, where the reference adds them one after the other
  (Proof/GruCell.lean: addition is commutative and associative, so the four summands regroup; nothing finite is
  needed, and the precondition is never opened). And the kernel applies the logistic function as one operation where
  the reference spells the quotient `1 / (1 + e⁻ᵛ)` (the same function by definition, at the infinities too). Casts to
  a narrower float format are the identity here. Proof/KernelRow.lean reads the kernel's store and Proof/RefRow.lean
  the reference's result at one entry, both as the same cell of one row; Proof/RegionArrays.lean reads the arrays the
  host prepares for the kernel (transposed weights, summed biases) in terms of the arguments.

  The three frames are the programs' runs with the results dropped, and the kernel's idealization rewrote nothing, so
  there is nothing to preserve.
-/
import proofs.«144782_j61375082660542_2_alg».proof.Defs
import proofs.«144782_j61375082660542_2_alg».proof.Proof.Gen.Kernel
import proofs.«144782_j61375082660542_2_alg».proof.Proof.Gen.Kernel.Skeleton
import proofs.«144782_j61375082660542_2_alg».proof.Proof.Gen.Kernel.Launch
import proofs.«144782_j61375082660542_2_alg».proof.Proof.Gen.Kernel.Points
import proofs.«144782_j61375082660542_2_alg».proof.Proof.Gen.Kernel.Frame
import proofs.«144782_j61375082660542_2_alg».proof.Proof.Gen.KernelIdeal
import proofs.«144782_j61375082660542_2_alg».proof.Proof.Gen.KernelIdeal.Skeleton
import proofs.«144782_j61375082660542_2_alg».proof.Proof.Gen.KernelIdeal.Launch
import proofs.«144782_j61375082660542_2_alg».proof.Proof.Gen.KernelIdeal.Points
import proofs.«144782_j61375082660542_2_alg».proof.Proof.Gen.KernelIdeal.Frame
import proofs.«144782_j61375082660542_2_alg».proof.Proof.Gen.ReferenceIdeal
import proofs.«144782_j61375082660542_2_alg».proof.Proof.Gen.KernelIdeal.Value
import proofs.«144782_j61375082660542_2_alg».proof.Proof.Gen.ReferenceIdeal.Run
import proofs.«144782_j61375082660542_2_alg».proof.Proof.Gen.ReferenceIdeal.Read
import proofs.«144782_j61375082660542_2_alg».proof.Proof.Gen.Pre_finite_inputs
import proofs.«144782_j61375082660542_2_alg».proof.Proof.WholeArray
import proofs.«144782_j61375082660542_2_alg».proof.Proof.RefRow
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference's frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- What both programs end holding in each of their two results: the new state of the kernel-side arguments. -/
def result (m : (ℓ : Loc Cert.KernelIdeal.nD Cert.KernelIdeal.τ Cert.KernelIdeal.sig) → Buf (Elt Ideal) ℓ)
    (c : Dev Cert.KernelIdeal.nD) :
    Buf (Elt Ideal) ((c.tc : Thread Cert.KernelIdeal.nD Cert.KernelIdeal.τ).loc Cert.KernelIdeal.main_v18) :=
  Cert.Gru.newState
    (Cert.KernelIdeal.RegionArrays.xs m c) (Cert.KernelIdeal.RegionArrays.hs m c)
    (Cert.KernelIdeal.RegionArrays.Wz m c) (Cert.KernelIdeal.RegionArrays.bWz m c)
    (Cert.KernelIdeal.RegionArrays.Wr m c) (Cert.KernelIdeal.RegionArrays.bWr m c)
    (Cert.KernelIdeal.RegionArrays.Wh m c) (Cert.KernelIdeal.RegionArrays.bWh m c)
    (Cert.KernelIdeal.RegionArrays.Uz m c) (Cert.KernelIdeal.RegionArrays.bUz m c)
    (Cert.KernelIdeal.RegionArrays.Ur m c) (Cert.KernelIdeal.RegionArrays.bUr m c)
    (Cert.KernelIdeal.RegionArrays.Uh m c) (Cert.KernelIdeal.RegionArrays.bUh m c)

/-- From memories agreeing on the fourteen arguments both programs end with both results at the new state of those
    arguments: the kernel by its run read block by block, the reference by its run read entry by entry. -/
theorem algebraic : Cert.algebraic_KernelIdeal_ReferenceIdeal := by
  intro m ρ m' ρ' _ hagree
  refine ⟨result m, result m, ?_, ?_⟩
  · exact (θ_run Cert.KernelIdeal.defs _ _).mono (fun _ h c => ⟨(h c).1, (h c).1, (h c).2⟩)
      (Cert.KernelIdeal.Whole.run m ρ)
  · refine (θ_run Cert.ReferenceIdeal.defs _ _).mono (fun _ h c => ?_) (Cert.ReferenceIdeal.Value.run (F := Ideal) m' ρ')
    obtain ⟨a0, a1, a2, a3, a4, a5, a6, a7, a8, a9, a10, a11, a12, a13⟩ := hagree c
    have e := (h c).1
    rw [a0, a1, a2, a3, a4, a5, a6, a7, a8, a9, a10, a11, a12, a13, Cert.ReferenceIdeal.Read.val_main_v49_eq, Cert.ReferenceIdeal.Row.result_eq] at e
    exact ⟨e, e, (h c).2.2⟩

/-- Everything the certificate claims. -/
theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
